-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : IVec S16384x4096 32) (main_arg1 : FVec F S16384x4096 .f32) : IVec S_ 1 :=
  let main_v0 : FVec F S16384x4096 .f32 := Host.absf main_arg1
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  main_v3
-- ==== Kernel.lean ====
abbrev S16384x4096 : Shape := ⟨2, ![16384, 4096]⟩
abbrev S2x1x1 : Shape := ⟨3, ![2, 1, 1]⟩
abbrev S512x4096 : Shape := ⟨2, ![512, 4096]⟩
abbrev S1x1x1 : Shape := ⟨3, ![1, 1, 1]⟩
abbrev S8x4096 : Shape := ⟨2, ![8, 4096]⟩
abbrev S64x8x4096 : Shape := ⟨3, ![64, 8, 4096]⟩
abbrev S1x8x4096 : Shape := ⟨3, ![1, 8, 4096]⟩
abbrev S1 : Shape := ⟨1, ![1]⟩
abbrev S_ : Shape := ⟨0, ![]⟩

abbrev nBuf : Space → Nat
  | .hbm => 5
  | .vmem => 7
  | .smem => 0
  | _ => 0

abbrev bufTy : (tb : Table) → Fin (tcTables nBuf tb) → BufTy
  | .hbm, ⟨0, _⟩ => ⟨S16384x4096, .i32⟩
  | .hbm, ⟨1, _⟩ => ⟨S16384x4096, .f32⟩
  | .hbm, ⟨2, _⟩ => ⟨S2x1x1, .f32⟩
  | .hbm, ⟨3, _⟩ => ⟨S_, .f32⟩
  | .hbm, ⟨4, _⟩ => ⟨S_, .f32⟩
  | .local _ .vmem, ⟨0, _⟩ => ⟨S512x4096, .i32⟩
  | .local _ .vmem, ⟨1, _⟩ => ⟨S512x4096, .i32⟩
  | .local _ .vmem, ⟨2, _⟩ => ⟨S512x4096, .f32⟩
  | .local _ .vmem, ⟨3, _⟩ => ⟨S512x4096, .f32⟩
  | .local _ .vmem, ⟨4, _⟩ => ⟨S1x1x1, .f32⟩
  | .local _ .vmem, ⟨5, _⟩ => ⟨S1x1x1, .f32⟩
  | .local _ .vmem, ⟨6, _⟩ => ⟨S8x4096, .f32⟩
  | _, _ => ⟨S16384x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v37 : BitVec 1 := Scalar.cmpi .eq arg1 c15_i32
  let v38 : BitVec 32 := Scalar.extui v37
  let c0_i32_14 : BitVec 32 := 0#32
  let v39 : BitVec 1 := Scalar.cmpi .ne v38 c0_i32_14
  v39

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S512x4096_S512x4096_0_0 : ∀ a, (![0, 0] : Fin 2 → Nat) a + S512x4096.size a ≤ S512x4096.size a
  h_S512x4096 : 0 < S512x4096.numel
  shapeCasts_S512x4096_S64x8x4096 : S512x4096.ShapeCasts S64x8x4096
  reduces_S64x8x4096_S8x4096 : S64x8x4096.Reduces [0] S8x4096
  shapeCasts_S8x4096_S1x8x4096 : S8x4096.ShapeCasts S1x8x4096
  reduces_S1x8x4096_S1 : S1x8x4096.Reduces [1, 2] S1
  shapeCasts_S1_S1x1x1 : S1.ShapeCasts S1x1x1
  inpos_S1x1x1_p0_0_0 : ∀ a, (![0, 0, 0] : Fin 3 → Nat) a < S1x1x1.size a
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .i32 = 32 ∨ (Rect.block (s := S16384x4096) S512x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .f32 = 32 ∨ (Rect.block (s := S16384x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x4096 : Shape := ⟨2, ![16384, 4096]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S16384x4096, .i32⟩
  | .hbm, ⟨1, _⟩ => ⟨S16384x4096, .f32⟩
  | .hbm, ⟨2, _⟩ => ⟨S16384x4096, .f32⟩
  | .hbm, ⟨3, _⟩ => ⟨S16384x4096, .f32⟩
  | .hbm, ⟨4, _⟩ => ⟨S_, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x4096, .i1⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16384x4096, .i1⟩
  | .hbm, ⟨27, _⟩ => ⟨S16384x4096, .f32⟩
  | .hbm, ⟨28, _⟩ => ⟨S16384x4096, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S16384x4096, .f32⟩
  | .hbm, ⟨33, _⟩ => ⟨S16384x4096, .f32⟩
  | .hbm, ⟨34, _⟩ => ⟨S16384x4096, .f32⟩
  | .hbm, ⟨35, _⟩ => ⟨S16384x4096, .f32⟩
  | .hbm, ⟨36, _⟩ => ⟨S16384x4096, .f32⟩
  | .hbm, ⟨37, _⟩ => ⟨S_, .f32⟩
  | .hbm, ⟨38, _⟩ => ⟨S16384x4096, .f32⟩
  | .hbm, ⟨39, _⟩ => ⟨S16384x4096, .f32⟩
  | .hbm, ⟨40, _⟩ => ⟨S16384x4096, .f32⟩
  | .hbm, ⟨41, _⟩ => ⟨S16384x4096, .f32⟩
  | .hbm, ⟨42, _⟩ => ⟨S_, .f32⟩
  | .hbm, ⟨43, _⟩ => ⟨S_, .f32⟩
  | .hbm, ⟨44, _⟩ => ⟨S_, .f32⟩
  | _, _ => ⟨S16384x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_call0_cst : Ref sig .tc := ⟨.hbm, 4, rfl⟩
abbrev main_call0_call0_v0 : Ref sig .tc := ⟨.hbm, 5, rfl⟩
abbrev main_call0_call0_v1 : Ref sig .tc := ⟨.hbm, 6, rfl⟩
abbrev main_call0_call0_v2 : Ref sig .tc := ⟨.hbm, 7, rfl⟩
abbrev main_call0_call0_v3 : Ref sig .tc := ⟨.hbm, 8, rfl⟩
abbrev main_call0_call0_v4 : Ref sig .tc := ⟨.hbm, 9, rfl⟩
abbrev main_call0_call0_v5 : Ref sig .tc := ⟨.hbm, 10, rfl⟩
abbrev main_call0_call0_v6 : Ref sig .tc := ⟨.hbm, 11, rfl⟩
abbrev main_call0_call0_v7 : Ref sig .tc := ⟨.hbm, 12, rfl⟩
abbrev main_call0_call0_v8 : Ref sig .tc := ⟨.hbm, 13, rfl⟩
abbrev main_call0_call0_v9 : Ref sig .tc := ⟨.hbm, 14, rfl⟩
abbrev main_call0_call0_v10 : Ref sig .tc := ⟨.hbm, 15, rfl⟩
abbrev main_call0_call0_v11 : Ref sig .tc := ⟨.hbm, 16, rfl⟩
abbrev main_call0_v1 : Ref sig .tc := ⟨.hbm, 17, rfl⟩
abbrev main_v1 : Ref sig .tc := ⟨.hbm, 18, rfl⟩
abbrev main_v2 : Ref sig .tc := ⟨.hbm, 19, rfl⟩
abbrev main_call1_v0 : Ref sig .tc := ⟨.hbm, 20, rfl⟩
abbrev main_call1_call0_cst : Ref sig .tc := ⟨.hbm, 21, rfl⟩
abbrev main_call1_call0_v0 : Ref sig .tc := ⟨.hbm, 22, rfl⟩
abbrev main_call1_call0_v1 : Ref sig .tc := ⟨.hbm, 23, rfl⟩
abbrev main_call1_call0_v2 : Ref sig .tc := ⟨.hbm, 24, rfl⟩
abbrev main_call1_call0_v3 : Ref sig .tc := ⟨.hbm, 25, rfl⟩
abbrev main_call1_call0_v4 : Ref sig .tc := ⟨.hbm, 26, rfl⟩
abbrev main_call1_call0_v5 : Ref sig .tc := ⟨.hbm, 27, rfl⟩
abbrev main_call1_call0_v6 : Ref sig .tc := ⟨.hbm, 28, rfl⟩
abbrev main_call1_call0_v7 : Ref sig .tc := ⟨.hbm, 29, rfl⟩
abbrev main_call1_call0_v8 : Ref sig .tc := ⟨.hbm, 30, rfl⟩
abbrev main_call1_call0_v9 : Ref sig .tc := ⟨.hbm, 31, rfl⟩
abbrev main_call1_call0_v10 : Ref sig .tc := ⟨.hbm, 32, rfl⟩
abbrev main_call1_call0_v11 : Ref sig .tc := ⟨.hbm, 33, rfl⟩
abbrev main_call1_v1 : Ref sig .tc := ⟨.hbm, 34, rfl⟩
abbrev main_v3 : Ref sig .tc := ⟨.hbm, 35, rfl⟩
abbrev main_v4 : Ref sig .tc := ⟨.hbm, 36, rfl⟩
abbrev main_cst : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_cst_0 : Ref sig .tc := ⟨.hbm, 42, rfl⟩
abbrev main_v9 : Ref sig .tc := ⟨.hbm, 43, rfl⟩
abbrev main_v10 : Ref sig .tc := ⟨.hbm, 44, rfl⟩

abbrev nD : Nat := 1
abbrev τ : Topo := Topo.v7x

variable {F : FTy → Type} [FloatOps F]

class Facts₀ : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts₀]

class Facts : Prop extends Facts₀ where

variable [Facts]
-- ==== Proof.KernPieces.lean ====
import proofs.«106328_j47373489275465_2_alg».proof.Proof.Gen.KernelIdeal.Frame
import Idealize.ShloMosaic.Lib.Pipeline.Value
import Idealize.ShloMosaic.Lib.Tactic

/-!
# What one grid point leaves behind, as values

The blocked program visits 32 grid points (2 halves × 16 row blocks). At each point its body updates an
8 × 4096 accumulator tile that is carried to the next point, and at the last point of a half it also
writes that half's scalar. Its body has three control cases:

* first point of a half: the tile is zeroed and then updated, so it ends as `update x₀ x₁ 0`;
* a middle point: the tile ends as `update x₀ x₁ acc` of what the previous point left;
* last point of a half: as a middle point, and the 1 × 1 × 1 output block receives the total of the updated tile.

Here `update` is the body's store payload for the tile (`k0_pay3`), `0` the zero tile (`k0_pay2`) and the total
is the payload `k0_pay1`. Each statement holds for every float instance: it only reads the stores the body's
run found (each covers its whole buffer) back as one value.
-/

noncomputable section

open Idealize.ShloMosaic Idealize.ShloMosaic.TcCoe Idealize.SL.Sem
open Idealize.ShloMosaic.Pipeline (Dat)

namespace Cert.Wce.Kern

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First point of a half: the carried tile ends as the update of the zero tile. -/
theorem tile_first (c : Dev nD) (i : grid0.Coords) (a2 : Memref sig .tc .vmem S512x4096 .i32) (h2 : a2.IsWhole)
    (a3 : Memref sig .tc .vmem S512x4096 .f32) (h3 : a3.IsWhole) (a4 : Memref sig .tc .vmem S1x1x1 .f32) (h4 : a4.IsWhole)
    (a5 : Memref sig .tc .vmem S8x4096 .f32) (h5 : a5.IsWhole) (hc0 : cond0_0 i) (hc1 : ¬cond0_1 i)
    (x0 : Vec F S512x4096 .i32) (x1 : Vec F S512x4096 .f32) :
    sout0_A_0 c i a2 h2 a3 h3 a4 h4 a5 h5 hc0 hc1 x0 x1 = k0_pay3 x0 x1 (k0_pay2 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S8x4096) hz2, View.readCov_unit_zero (S := S8x4096) _ hz2]
  simp only [View.readAt_eq_ld, h2.read_unread, h3.read_unread,
    View.ld_unit_zero (S := S512x4096) hz2, View.ld_unit_zero (S := S8x4096) hz2]

/-- A middle point: the carried tile ends as the update of what it held. -/
theorem tile_middle (c : Dev nD) (i : grid0.Coords) (a2 : Memref sig .tc .vmem S512x4096 .i32) (h2 : a2.IsWhole)
    (a3 : Memref sig .tc .vmem S512x4096 .f32) (h3 : a3.IsWhole) (a4 : Memref sig .tc .vmem S1x1x1 .f32) (h4 : a4.IsWhole)
    (a5 : Memref sig .tc .vmem S8x4096 .f32) (h5 : a5.IsWhole) (hc0 : ¬cond0_0 i) (hc1 : ¬cond0_1 i)
    (x0 : Vec F S512x4096 .i32) (x1 : Vec F S512x4096 .f32) (xs0 : Vec F S8x4096 .f32) :
    sout0_B_0 c i a2 h2 a3 h3 a4 h4 a5 h5 hc0 hc1 x0 x1 xs0 = k0_pay3 x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz2]
  simp only [View.readAt_eq_ld, h2.read_unread, h3.read_unread, h5.read_unread,
    View.ld_unit_zero (S := S512x4096) hz2, View.ld_unit_zero (S := S8x4096) hz2]

/-- Last point of a half: the carried tile ends as the update of what it held, -/
theorem tile_last (c : Dev nD) (i : grid0.Coords) (a2 : Memref sig .tc .vmem S512x4096 .i32) (h2 : a2.IsWhole)
    (a3 : Memref sig .tc .vmem S512x4096 .f32) (h3 : a3.IsWhole) (a4 : Memref sig .tc .vmem S1x1x1 .f32) (h4 : a4.IsWhole)
    (a5 : Memref sig .tc .vmem S8x4096 .f32) (h5 : a5.IsWhole) (hc0 : ¬cond0_0 i) (hc1 : cond0_1 i)
    (x0 : Vec F S512x4096 .i32) (x1 : Vec F S512x4096 .f32) (xs0 : Vec F S8x4096 .f32) :
    sout0_C_0 c i a2 h2 a3 h3 a4 h4 a5 h5 hc0 hc1 x0 x1 xs0 = k0_pay3 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz2]
  simp only [View.readAt_eq_ld, h2.read_unread, h3.read_unread, h5.read_unread,
    View.ld_unit_zero (S := S512x4096) hz2, View.ld_unit_zero (S := S8x4096) hz2]

/-- and the output block receives the total of that updated tile. -/
theorem block_last (c : Dev nD) (i : grid0.Coords) (a2 : Memref sig .tc .vmem S512x4096 .i32) (h2 : a2.IsWhole)
    (a3 : Memref sig .tc .vmem S512x4096 .f32) (h3 : a3.IsWhole) (a4 : Memref sig .tc .vmem S1x1x1 .f32) (h4 : a4.IsWhole)
    (a5 : Memref sig .tc .vmem S8x4096 .f32) (h5 : a5.IsWhole) (hc0 : ¬cond0_0 i) (hc1 : cond0_1 i)
    (x0 : Vec F S512x4096 .i32) (x1 : Vec F S512x4096 .f32) (xs0 : Vec F S8x4096 .f32) :
    out0_C_2 c i a2 h2 a3 h3 a4 h4 a5 h5 hc0 hc1 x0 x1 xs0 = k0_pay1 (k0_pay3 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz3, View.readCov_unit_zero (S := S8x4096) _ hz2]
  simp only [View.readAt_eq_ld, h2.read_unread, h3.read_unread, h5.read_unread,
    View.ld_unit_zero (S := S512x4096) hz2, View.ld_unit_zero (S := S8x4096) hz2]

end Cert.Wce.Kern

end
-- ==== Proof.LossSpec.lean ====
import Idealize.ShloMosaic.PureOps.Ideal
import Idealize.ShloMosaic.Lib.ValueIdx

/-!
# The two losses, as functions of the argument arrays

Both programs compute a binary cross-entropy with logits `z` (the float array) and integer targets `t`
(the integer array, converted exactly), summed over all 16384 × 4096 entries.

* `softplus x = max x 0 + log (1 + exp (-|x|))` and `logSigmoid x = -softplus (-x)`.
* One program sums `termR t z = t · logσ z + (1 - t) · logσ (-z)` over the whole array and negates the sum.
* The other sums `lossK t z = -(t · z + logσ (-z))`, arranged by blocks of 512 rows: inside a block the
  64 groups of 8 consecutive rows are added into an 8 × 4096 tile, the tiles of the 16 blocks of one half
  of the rows are accumulated one after the other starting from zero, the accumulated tile is summed, and
  the two halves' sums are added.

This file only states these functions; that they agree on finite logits is proved elsewhere.
-/

noncomputable section

open scoped BigOperators

namespace Cert.Wce

open Idealize.ShloMosaic Idealize.ShloMosaic.ValueIdx

/-- The index set of the two argument arrays: 16384 rows, 4096 columns. -/
abbrev ArrIdx : Type := (⟨2, ![16384, 4096]⟩ : Shape).Idx

/-- `max x 0 + log (1 + exp (-|x|))`, with `|x| = max x (-x)`. -/
def softplus (x : EReal) : EReal := max x 0 + Ideal.log1p (Ideal.exp (-(max x (-x))))

/-- `log σ(x) = -softplus (-x)`. -/
def logSigmoid (x : EReal) : EReal := -softplus (-x)

/-- An integer target as an extended real. -/
def tOf (p : BitVec 32) : EReal := ((p.toInt : ℝ) : EReal)

/-- The blocked program's entry: `-(t·z + log σ(-z))`. -/
def lossK (t z : EReal) : EReal := -(t * z + logSigmoid (-z))

/-- The plain program's entry: `t · log σ(z) + (1 - t) · log σ(-z)`. -/
def termR (t z : EReal) : EReal := t * logSigmoid z + (1 - t) * logSigmoid (-z)

/-- The plain program's result: minus (zero plus the sum of all entries). -/
def totalR (P : ArrIdx → BitVec 32) (Z : ArrIdx → EReal) : EReal :=
  -(0 + ∑ i : ArrIdx, termR (tOf (P i)) (Z i))

/-- Row `n·512 + q·8 + r` of the array: row `r` of the `q`-th group of eight rows of row block `n`. -/
def rowOf (n : ℕ) (hn : n < 32) (q : Fin 64) (r : Fin 8) : Fin 16384 :=
  ⟨n * 512 + q.val * 8 + r.val, by have := q.isLt; have := r.isLt; omega⟩

/-- Row block `n` folded to a tile: at `(r, l)` the sum over the 64 groups of the entry at row `rowOf n q r`, column `l`. -/
def partialK (P : ArrIdx → BitVec 32) (Z : ArrIdx → EReal) (n : ℕ) (hn : n < 32) (r : Fin 8) (l : Fin 4096) : EReal :=
  ∑ q : Fin 64, lossK (tOf (P (ix2 (rowOf n hn q r) l))) (Z (ix2 (rowOf n hn q r) l))

/-- The accumulated tile after row block `n`: restarted from zero at the first block of each half (`n % 16 = 0`). -/
def accK (P : ArrIdx → BitVec 32) (Z : ArrIdx → EReal) : (n : ℕ) → n < 32 → Fin 8 → Fin 4096 → EReal
  | 0, hn => fun r l => 0 + partialK P Z 0 hn r l
  | n + 1, hn => fun r l =>
      if (n + 1) % 16 = 0 then 0 + partialK P Z (n + 1) hn r l
      else accK P Z n (Nat.lt_of_succ_lt hn) r l + partialK P Z (n + 1) hn r l

/-- One half's sum: the accumulated tile after its last row block, summed over the tile. -/
def coreK (P : ArrIdx → BitVec 32) (Z : ArrIdx → EReal) (c : Fin 2) : EReal :=
  ∑ i : (⟨3, ![1, 8, 4096]⟩ : Shape).Idx, accK P Z (16 * c.val + 15) (by have := c.isLt; omega) (i 1) (i 2)

/-- The blocked program's result: zero plus the two halves' sums. -/
def totalK (P : ArrIdx → BitVec 32) (Z : ArrIdx → EReal) : EReal :=
  0 + ∑ i : (⟨3, ![2, 1, 1]⟩ : Shape).Idx, coreK P Z (i 0)

end Cert.Wce

end
-- ==== Proof.KernPayload.lean ====
import proofs.«106328_j47373489275465_2_alg».proof.Proof.Gen.KernelIdeal.Skeleton
import proofs.«106328_j47373489275465_2_alg».proof.Proof.LossSpec
import Idealize.ShloMosaic.Lib.Pipeline.Value
import Idealize.ShloMosaic.Lib.ValueIdx
import Idealize.ShloMosaic.Lib.ValueLayout
import Idealize.ShloMosaic.PureOps.Ideal.Laws

/-!
# The body's three stored values, entry by entry, over the extended reals

* the zero tile is `0` everywhere;
* the updated tile at `(r, l)` is the old tile's entry plus the sum, over the 64 groups of eight rows of the
  512-row block, of the entrywise loss at row `q·8 + r`, column `l` (the block is regrouped as 64 × 8 × 4096 in
  row-major order and summed along its first axis);
* the total is the sum of all 8 × 4096 entries of the tile.

The entrywise loss is `lossK` of the converted target and the logit: the body spells `-x` as `0 - x`, guards its
softplus by a test `x ≠ x` that is never true on the extended reals, and otherwise computes
`max x 0 + log (1 + exp (-|x|))` at `x = -(-z)`.
-/

noncomputable section
open scoped BigOperators
open Idealize.ShloMosaic Idealize.ShloMosaic.ValueIdx

namespace Cert.Wce.Kern

open Cert.KernelIdeal Cert.KernelIdeal.Gen

/-- The entrywise loss of a block of targets and a block of logits. -/
def lossBlock (x0 : Vec Ideal S512x4096 .i32) (x1 : Vec Ideal S512x4096 .f32) : FVec Ideal S512x4096 .f32 :=
  fun j => Cert.Wce.lossK (Cert.Wce.tOf (x0 j)) (x1 j)

/-- Row `q·8 + r` of a 512-row block. -/
def row8 (q : Fin 64) (r : Fin 8) : Fin 512 := ⟨q.val * 8 + r.val, by have := q.isLt; have := r.isLt; omega⟩

/-- On a linear order nothing differs from itself. -/
theorem cmp_one_self (x : EReal) : Ideal.cmp .one x x = 0#1 := by
  simp [Ideal.cmp]

/-- The zero tile. -/
theorem zeroTile_apply (j : S8x4096.Idx) : k0_pay2 (F := Ideal) j = 0 := by
  unfold k0_pay2
  refine (congrFun (shapeCast_self _ _) j).trans ?_
  exact Ideal.ofBits_zero_f32

/-- The update, as one expression: the old tile plus the regrouped block of entrywise losses summed along its first axis. -/
theorem update_eq (x0 : Vec Ideal S512x4096 .i32) (x1 : Vec Ideal S512x4096 .f32) (acc : FVec Ideal S8x4096 .f32) :
    k0_pay3 (F := Ideal) x0 x1 acc
      = addf acc (multiReduction .add [0] S8x4096 (shapeCast S64x8x4096 (lossBlock x0 x1) shapeCasts_S512x4096_S64x8x4096)
          0x00000000#32 reduces_S64x8x4096_S8x4096 (.inl rfl) rfl) := by
  unfold k0_pay3
  dsimp only
  refine (shapeCast_self _ _).trans ?_
  refine congrArg (addf acc) ?_
  refine congrArg (fun v => multiReduction .add [0] S8x4096 (shapeCast S64x8x4096 v shapeCasts_S512x4096_S64x8x4096)
          0x00000000#32 reduces_S64x8x4096_S8x4096 (.inl rfl) rfl) ?_
  funext j
  unfold lossBlock Cert.Wce.lossK Cert.Wce.logSigmoid Cert.Wce.softplus Cert.Wce.tOf
  simp only [subf, addf, mulf, maximumf, absf, exp, log1p, select, cmpf, sitofp, broadcast]
  simp only [Ideal.subf_def, Ideal.addf_def, Ideal.mulf_def, Ideal.maximumf_def, Ideal.exp_def, Ideal.log1p_def,
    Ideal.ofBits_def, Ideal.ofBits_zero_f32, Ideal.cmpf_def, Ideal.absf_def, cmp_one_self, ValueIdx.select_zero,
    zero_sub, sub_zero]
  rfl

/-- The updated tile at `(r, l)`: the old entry plus the 64 entrywise losses at rows `q·8 + r`, column `l`. -/
theorem update_apply (x0 : Vec Ideal S512x4096 .i32) (x1 : Vec Ideal S512x4096 .f32) (acc : FVec Ideal S8x4096 .f32)
    (r : Fin 8) (l : Fin 4096) :
    k0_pay3 (F := Ideal) x0 x1 acc (ix2 r l) = acc (ix2 r l) + ∑ q : Fin 64, lossBlock x0 x1 (ix2 (row8 q r) l) := by
  rw [update_eq]
  refine congrArg (acc (ix2 r l) + ·) ?_
  refine (Ideal.multiReduction_add_single _ _ reduces_S64x8x4096_S8x4096 (.inl rfl) rfl (ix2 r l)).trans ?_
  show ∑ q : Fin 64, _ = _
  refine Finset.sum_congr rfl fun q _ => ?_
  exact shapeCast_apply _ _ _ (ix2 (row8 q r) l) (by
    rw [Shape.rowMajor_val_two, Shape.rowMajor_val_three]
    rfl)

/-- A tile's entry by its two coordinates. -/
def tileAt (acc : FVec Ideal S8x4096 .f32) (r : Fin 8) (l : Fin 4096) : EReal := acc (ix2 r l)

/-- The total of a tile: the sum of all its entries (the tile is read as 1 × 8 × 4096 and summed over its last two axes). -/
theorem total_apply (acc : FVec Ideal S8x4096 .f32) (j : S1x1x1.Idx) :
    k0_pay1 (F := Ideal) acc j = ∑ i : (⟨3, ![1, 8, 4096]⟩ : Shape).Idx, tileAt acc (i 1) (i 2) := by
  simp only [k0_pay1, extractAt, broadcast]
  refine (shapeCast_apply _ _ _ (ix1 (0 : Fin 1)) (by rw [Shape.rowMajor_val_one, Shape.rowMajor_val_three]; rfl)).trans ?_
  refine (Ideal.multiReduction_add_total _ _ reduces_S1x8x4096_S1 (fun b => by fin_cases b; rfl) (.inl rfl) rfl (ix1 (0 : Fin 1))).trans ?_
  refine Finset.sum_congr rfl fun i _ => ?_
  obtain ⟨u, r, l, rfl⟩ : ∃ (u : Fin 1) (r : Fin 8) (l : Fin 4096), i = ix3 u r l := ⟨i 0, i 1, i 2, eq_ix3 i⟩
  exact shapeCast_ab_1ab_apply acc _ u r l

end Cert.Wce.Kern

end
-- ==== Proof.KernBlocks.lean ====
import proofs.«106328_j47373489275465_2_alg».proof.Proof.Gen.KernelIdeal.Frame
import Idealize.ShloMosaic.Lib.Pipeline.Value
import Idealize.ShloMosaic.Lib.ValueIdx

/-!
# A grid point's input blocks, read off the argument arrays

The grid has 32 points; at point `t` both input windows' block index is `(t, 0)` and the block is 512 × 4096, so
entry `(ρ, l)` of the block is entry `(512·t + ρ, l)` of the argument array.
-/

noncomputable section

namespace Cert.Wce.Kern

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- Window 0's block index at point `t` is `(t, 0)`: decided over the 32 grid points. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Window 1's block index at point `t` is `(t, 0)`: decided over the 32 grid points. -/
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Entry `(ρ, l)` of the integer window's block at point `t` is entry `(512·t + ρ, l)` of the integer array:
    a block's coordinate is its index times its size plus the coordinate inside the block. -/
theorem blk0 (c : Dev nD) (t : Fin cfg0.N) (ρ : Fin 512) (l : Fin 4096) (h : t.val * 512 + ρ.val < 16384) :
    (iblk m c 0 t : Vec F S512x4096 .i32) (ix2 ρ l)
      = m ((c : Thread nD τ).loc main_arg0) (ix2 ⟨t.val * 512 + ρ.val, h⟩ l) := by
  have hi := idx0 t
  unfold iblk
  rw [View.read_apply]
  show V m c main_arg0 _ = m (c.tc.loc main_arg0) _
  unfold V
  congr 1
  funext a
  apply Fin.ext
  match a with
  | ⟨0, _⟩ => show win0_0.index t 0 * 512 + 1 * ρ.val = t.val * 512 + ρ.val; rw [hi.1]; omega
  | ⟨1, _⟩ => show win0_0.index t 1 * 4096 + 1 * l.val = l.val; rw [hi.2]; omega

/-- Entry `(ρ, l)` of the float window's block at point `t` is entry `(512·t + ρ, l)` of the float array. -/
theorem blk1 (c : Dev nD) (t : Fin cfg0.N) (ρ : Fin 512) (l : Fin 4096) (h : t.val * 512 + ρ.val < 16384) :
    (iblk m c 1 t : Vec F S512x4096 .f32) (ix2 ρ l)
      = m ((c : Thread nD τ).loc main_arg1) (ix2 ⟨t.val * 512 + ρ.val, h⟩ l) := by
  have hi := idx1 t
  unfold iblk
  rw [View.read_apply]
  show V m c main_arg1 _ = m (c.tc.loc main_arg1) _
  unfold V
  congr 1
  funext a
  apply Fin.ext
  match a with
  | ⟨0, _⟩ => show win0_1.index t 0 * 512 + 1 * ρ.val = t.val * 512 + ρ.val; rw [hi.1]; omega
  | ⟨1, _⟩ => show win0_1.index t 1 * 4096 + 1 * l.val = l.val; rw [hi.2]; omega

end Cert.Wce.Kern

end
-- ==== Proof.KernTile.lean ====
import proofs.«106328_j47373489275465_2_alg».proof.Proof.KernPieces
import proofs.«106328_j47373489275465_2_alg».proof.Proof.KernPayload
import proofs.«106328_j47373489275465_2_alg».proof.Proof.KernBlocks
import proofs.«106328_j47373489275465_2_alg».proof.Proof.LossSpec

/-!
# The accumulated tile, point by point

Grid point `n` (of 32) reads row block `n` of both argument arrays: rows `n·512 … n·512 + 511`. So one update of
the tile adds, at `(r, l)`, the folded row block `partialK n r l`, and by induction on the point the tile carried
after point `n` is `accK n`: restarted from zero at the first point of each half, accumulated otherwise. At the
last point of a half the output block receives the total of that tile, which is the half's sum `coreK`.
-/

noncomputable section
open scoped BigOperators
open Idealize.ShloMosaic Idealize.ShloMosaic.TcCoe Idealize.ShloMosaic.ValueIdx Idealize.SL.Sem

namespace Cert.Wce.Kern

open Cert.KernelIdeal Cert.KernelIdeal.Gen

/-- One update, over any two blocks that read rows `n·512 + ρ` of the arrays `P`, `Z`: the old entry plus the folded row block. -/
theorem update_rowBlock (P : Cert.Wce.ArrIdx → BitVec 32) (Z : Cert.Wce.ArrIdx → EReal) (n : ℕ) (hn : n < 32)
    (x0 : Vec Ideal S512x4096 .i32) (x1 : Vec Ideal S512x4096 .f32)
    (h0 : ∀ (ρ : Fin 512) (l : Fin 4096) (h : n * 512 + ρ.val < 16384), x0 (ix2 ρ l) = P (ix2 ⟨n * 512 + ρ.val, h⟩ l))
    (h1 : ∀ (ρ : Fin 512) (l : Fin 4096) (h : n * 512 + ρ.val < 16384), x1 (ix2 ρ l) = Z (ix2 ⟨n * 512 + ρ.val, h⟩ l))
    (acc : FVec Ideal S8x4096 .f32) (r : Fin 8) (l : Fin 4096) :
    k0_pay3 (F := Ideal) x0 x1 acc (ix2 r l) = acc (ix2 r l) + Cert.Wce.partialK P Z n hn r l := by
  refine (update_apply x0 x1 acc r l).trans (congrArg (acc (ix2 r l) + ·) ?_)
  unfold Cert.Wce.partialK
  refine Finset.sum_congr rfl fun q _ => ?_
  have hb : n * 512 + (row8 q r).val < 16384 := by
    have := (row8 q r).isLt; omega
  have e : (⟨n * 512 + (row8 q r).val, hb⟩ : Fin 16384) = Cert.Wce.rowOf n hn q r :=
    Fin.ext (by show n * 512 + (q.val * 8 + r.val) = n * 512 + q.val * 8 + r.val; omega)
  unfold lossBlock
  rw [h0 (row8 q r) l hb, h1 (row8 q r) l hb, e]

section AnyInstance
variable {F : FTy → Type} [FloatOps F] (m : (ℓ : Loc nD τ sig) → Buf (Elt F) ℓ)

/-- After the first point of a half the carried tile is the update of the zero tile by the point's blocks. -/
theorem tile_at_first (c : Dev nD) (t : Fin cfg0.N) (h0 : t.val % 16 = 0) (h1 : ¬t.val % 16 = 15) :
    (outsAt0 m c t.val t.isLt).2 = k0_pay3 (iblk m c 0 t) (iblk m c 1 t) (k0_pay2 (F := F)) := by
  have e := congrArg Prod.snd (outsAt0_A m c t h0 h1)
  dsimp only at e
  exact e.trans
    (tile_first c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t))

/-- After a middle point it is the update of what the point before left. -/
theorem tile_at_middle (c : Dev nD) (t : Fin cfg0.N) (h0 : ¬t.val % 16 = 0) (h1 : ¬t.val % 16 = 15) :
    (outsAt0 m c t.val t.isLt).2 = k0_pay3 (iblk m c 0 t) (iblk m c 1 t)
      (outsAt0 m c (t.val - 1) (Nat.lt_of_le_of_lt (Nat.sub_le _ _) t.isLt)).2 := by
  have e := congrArg Prod.snd (outsAt0_B m c t h0 h1)
  dsimp only at e
  exact e.trans
    (tile_middle c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2)

/-- After the last point of a half likewise, -/
theorem tile_at_last (c : Dev nD) (t : Fin cfg0.N) (h0 : ¬t.val % 16 = 0) (h1 : t.val % 16 = 15) :
    (outsAt0 m c t.val t.isLt).2 = k0_pay3 (iblk m c 0 t) (iblk m c 1 t)
      (outsAt0 m c (t.val - 1) (Nat.lt_of_le_of_lt (Nat.sub_le _ _) t.isLt)).2 := by
  have e := congrArg Prod.snd (outsAt0_C m c t h0 h1)
  dsimp only at e
  exact e.trans
    (tile_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2)

/-- and the output block holds the total of the tile that point leaves. -/
theorem block_at_last (c : Dev nD) (t : Fin cfg0.N) (h0 : ¬t.val % 16 = 0) (h1 : t.val % 16 = 15) :
    (outsAt0 m c t.val t.isLt).1 = k0_pay1 (outsAt0 m c t.val t.isLt).2 := by
  have e := congrArg Prod.fst (outsAt0_C m c t h0 h1)
  dsimp only at e
  exact (e.trans
    (block_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2)).trans
    (congrArg k0_pay1 (tile_at_last m c t h0 h1).symm)

end AnyInstance

variable (m : (ℓ : Loc nD τ sig) → Buf (Elt Ideal) ℓ)

theorem lt32 {n : ℕ} (h : n < cfg0.N) : n < 32 := lt_of_lt_of_eq h (show cfg0.N = 32 from N_0)

/-- The update at grid point `t`, on the point's own input blocks. -/
theorem update_point (c : Dev nD) (t : Fin cfg0.N) (acc : FVec Ideal S8x4096 .f32) (r : Fin 8) (l : Fin 4096) :
    k0_pay3 (F := Ideal) (iblk m c 0 t) (iblk m c 1 t) acc (ix2 r l)
      = acc (ix2 r l) + Cert.Wce.partialK (m ((c : Thread nD τ).loc main_arg0)) (m ((c : Thread nD τ).loc main_arg1)) t.val (lt32 t.isLt) r l :=
  update_rowBlock (m ((c : Thread nD τ).loc main_arg0)) (m ((c : Thread nD τ).loc main_arg1)) t.val (lt32 t.isLt)
    (iblk m c 0 t) (iblk m c 1 t) (fun ρ l h => blk0 m c t ρ l h) (fun ρ l h => blk1 m c t ρ l h) acc r l

/-- The tile carried after point `n` is the accumulated tile `accK n`. -/
theorem tile_eq (c : Dev nD) : ∀ (n : ℕ) (h : n < cfg0.N) (r : Fin 8) (l : Fin 4096),
    ((outsAt0 m c n h).2 : FVec Ideal S8x4096 .f32) (ix2 r l)
      = Cert.Wce.accK (m ((c : Thread nD τ).loc main_arg0)) (m ((c : Thread nD τ).loc main_arg1)) n (lt32 h) r l
  | 0, h, r, l => by
    refine (congrFun (tile_at_first m c ⟨0, h⟩ (Nat.zero_mod _) (by show ¬(0 : ℕ) % 16 = 15; omega)) (ix2 r l)).trans ?_
    refine (update_point m c ⟨0, h⟩ (k0_pay2 (F := Ideal)) r l).trans ?_
    rw [zeroTile_apply]
    rfl
  | n + 1, h, r, l => by
    have hN : n + 1 < 32 := lt32 h
    by_cases h0 : (n + 1) % 16 = 0
    · have h1 : ¬(n + 1) % 16 = 15 := by omega
      refine (congrFun (tile_at_first m c ⟨n + 1, h⟩ h0 h1) (ix2 r l)).trans ?_
      refine (update_point m c ⟨n + 1, h⟩ (k0_pay2 (F := Ideal)) r l).trans ?_
      rw [zeroTile_apply]
      show _ = if (n + 1) % 16 = 0 then _ else _
      rw [if_pos h0]
    · have ih := tile_eq c n (Nat.lt_of_succ_lt h) r l
      by_cases h1 : (n + 1) % 16 = 15
      · refine (congrFun (tile_at_last m c ⟨n + 1, h⟩ h0 h1) (ix2 r l)).trans ?_
        refine (update_point m c ⟨n + 1, h⟩ _ r l).trans ?_
        refine (congrArg (· + _) ih).trans ?_
        show _ = if (n + 1) % 16 = 0 then _ else _
        rw [if_neg h0]
      · refine (congrFun (tile_at_middle m c ⟨n + 1, h⟩ h0 h1) (ix2 r l)).trans ?_
        refine (update_point m c ⟨n + 1, h⟩ _ r l).trans ?_
        refine (congrArg (· + _) ih).trans ?_
        show _ = if (n + 1) % 16 = 0 then _ else _
        rw [if_neg h0]

/-- The accumulated tile depends on the point only through its number. -/
theorem accK_congr (P : Cert.Wce.ArrIdx → BitVec 32) (Z : Cert.Wce.ArrIdx → EReal) {n n' : ℕ} (e : n = n') (h : n < 32) (h' : n' < 32) :
    Cert.Wce.accK P Z n h = Cert.Wce.accK P Z n' h' := by
  subst e; rfl

/-- At the last point of half `t / 16` the output block holds that half's sum. -/
theorem block_eq (c : Dev nD) (t : Fin cfg0.N) (h15 : t.val % 16 = 15) (j : S1x1x1.Idx) :
    (outsAt0 m c t.val t.isLt).1 j
      = Cert.Wce.coreK (m ((c : Thread nD τ).loc main_arg0)) (m ((c : Thread nD τ).loc main_arg1))
          ⟨t.val / 16, by have := lt32 t.isLt; omega⟩ := by
  have hN : t.val < 32 := lt32 t.isLt
  have h0 : ¬t.val % 16 = 0 := by omega
  refine (congrFun (block_at_last m c t h0 h15) j).trans ?_
  refine (total_apply _ j).trans ?_
  unfold Cert.Wce.coreK
  refine Finset.sum_congr rfl fun i _ => ?_
  obtain ⟨u, r, l, rfl⟩ : ∃ (u : Fin 1) (r : Fin 8) (l : Fin 4096), i = ix3 u r l := ⟨i 0, i 1, i 2, eq_ix3 i⟩
  show ((outsAt0 m c t.val t.isLt).2 : FVec Ideal S8x4096 .f32) (ix2 r l) = Cert.Wce.accK _ _ _ _ r l
  rw [tile_eq m c t.val t.isLt r l]
  exact congrFun (congrFun (accK_congr _ _ (by show t.val = 16 * (t.val / 16) + 15; omega) _ _) r) l

end Cert.Wce.Kern

end
-- ==== Proof.KernFinal.lean ====
import proofs.«106328_j47373489275465_2_alg».proof.Proof.Gen.KernelIdeal.Frame
import Idealize.ShloMosaic.Lib.Pipeline.Value
import Idealize.ShloMosaic.Lib.StableHlo.Run
import Idealize.ShloMosaic.Lib.Tactic
import Idealize.ShloMosaic.PureOps.Ideal.Laws
import Idealize.ShloMosaic.Lib.ValueIdx

/-!
# From the flushed blocks to the result buffer

The output array has shape 2 × 1 × 1 and is written back one entry at a time: the grid point `t` with
`t % 16 = 15` writes its 1 × 1 × 1 block to entry `(t / 16, 0, 0)`. The two such points (15 and 31) cover the
array, so the array ends holding, at `(c, 0, 0)`, what the block held at point `16·c + 15`. The host then adds
the array's entries to the constant zero.
-/

set_option maxRecDepth 16384

noncomputable section

namespace Cert.Wce.Kern

open Cert.KernelIdeal Cert.KernelIdeal.Gen Idealize.ShloMosaic Idealize.ShloMosaic.TcCoe Idealize.SL.Sem
open Idealize.ShloMosaic.Pipeline (Dat)

section Generic

variable {F : FTy → Type} [FloatOps F]
variable (m : (ℓ : Loc nD τ sig) → Buf (Elt F) ℓ)

/-- The output window's block index at grid point `t` is `(t / 16, 0, 0)` — decided over the 32 points. -/
theorem idx_facts : ∀ t : Fin cfg0.N, win0_2.index t (0 : Fin 3) = t.val / 16
    ∧ win0_2.index t (1 : Fin 3) = 0 ∧ win0_2.index t (2 : Fin 3) = 0 :=
  (by decide +kernel : ∀ t : Fin grid0.N, _)

/-- An index of the array is in point `t`'s block iff each coordinate is in the block's range on its axis. -/
theorem mem_blk (t : Fin cfg0.N) (i : S2x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v0).slice (win0_2.rect t)).set ↔ _
  rw [View.set_slice_whole, Rect.mem_set_unit]
  exact Iff.rfl

/-- If at each flushing point `t` (`t % 16 = 15`) the block holds `G (t / 16)`, the output array ends holding
    `G (i 0)` at every index `i`: point `t` writes entry `(t / 16, 0, 0)`, and the points 15 and 31 cover the array. -/
theorem final_of_blocks (c : Dev nD) (G : Fin 2 → F .f32)
    (hblk : ∀ (t : Fin cfg0.N) (h15 : t.val % 16 = 15) (j : S1x1x1.Idx),
      (outsAt0 m c t.val t.isLt).1 j = G ⟨t.val / 16, by have := t.isLt; have : cfg0.N = 32 := N_0; omega⟩) :
    (dats m 0 c).arrAt 2 cfg0.N = fun i => G (i 0) := by
  have hN : cfg0.N = 32 := N_0
  refine (dats m 0 c).arrAt_eq_of_cover 2 (fun i => G (i 0)) ?_ ?_
  · intro t hf
    have h15 : t.val % 16 = 15 := (flush0_2 t).mp hf
    show (cfg0.win 2).cut (grid0.coords t) ((dats m 0 c).after 2 t) = _
    rw [after0_2]
    funext j
    refine (hblk t h15 j).trans ?_
    show G _ = G ((((cfg0.win 2).blk t).view.emb j) 0)
    congr 1
    apply Fin.ext
    show t.val / 16 = ((win0_2.rect t).emb j (0 : Fin 3) : ℕ)
    rw [Pipeline.Window.rect_emb_val, (idx_facts t).1]
    have hj : (j 0 : ℕ) < 1 := (j 0).isLt
    show t.val / 16 = t.val / 16 * 1 + (j 0 : ℕ)
    omega
  · intro i
    have hi0 : (i 0).val < 2 := (i 0).isLt
    have hi1 : (i 1).val < 1 := (i 1).isLt
    have hi2 : (i 2).val < 1 := (i 2).isLt
    have ht : 16 * (i 0).val + 15 < cfg0.N := by rw [hN]; omega
    refine ⟨⟨16 * (i 0).val + 15, ht⟩, (flush0_2 _).mpr (by show (16 * (i 0).val + 15) % 16 = 15; omega), ?_⟩
    rw [mem_blk]
    obtain ⟨e0, e1, e2⟩ := idx_facts ⟨16 * (i 0).val + 15, ht⟩
    intro a
    match a with
    | ⟨0, _⟩ =>
      show win0_2.index _ (0 : Fin 3) * 1 ≤ (i 0).val ∧ (i 0).val < win0_2.index _ (0 : Fin 3) * 1 + 1
      rw [e0]
      show (16 * (i 0).val + 15) / 16 * 1 ≤ (i 0).val ∧ (i 0).val < (16 * (i 0).val + 15) / 16 * 1 + 1
      omega
    | ⟨1, _⟩ =>
      show win0_2.index _ (1 : Fin 3) * 1 ≤ (i 1).val ∧ (i 1).val < win0_2.index _ (1 : Fin 3) * 1 + 1
      rw [e1]; omega
    | ⟨2, _⟩ =>
      show win0_2.index _ (2 : Fin 3) * 1 ≤ (i 2).val ∧ (i 2).val < win0_2.index _ (2 : Fin 3) * 1 + 1
      rw [e2]; omega

end Generic

section AtIdeal

variable (m : (ℓ : Loc nD τ sig) → Buf (Elt Ideal) ℓ) (ρ : Dev nD → PrngReg)

/-- The host tail: zero plus the sum of the output array's entries. -/
theorem tail_of_blocks (c : Dev nD) (G : Fin 2 → EReal)
    (hblk : ∀ (t : Fin cfg0.N) (h15 : t.val % 16 = 15) (j : S1x1x1.Idx),
      (outsAt0 m c t.val t.isLt).1 j = G ⟨t.val / 16, by have := t.isLt; have : cfg0.N = 32 := N_0; omega⟩) :
    Pipeline.afterTail₀ cfgs (dats m) 0 (V0 m) [hostOps1] c main_v1
      = (fun _ => (0 : EReal) + ∑ i : (⟨3, ![2, 1, 1]⟩ : Shape).Idx, G (i 0)) := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = fun i => G (i 0) :=
    (Pipeline.withArrays_arr spec0 launch0.win.arr_inj c _ _ 2).trans (final_of_blocks m c G hblk)
  rw [e]
  funext j
  unfold Host.reduceAdd
  rw [Ideal.hostReduceAdd_def, Ideal.hostReduceAdd_total _ (fun b => b.elim0)]
  show Ideal.ofBits .f32 0x00000000#32 + _ = _
  rw [Ideal.ofBits_zero_f32]

/-- The run, read: the result buffer at zero plus the sum of the two halves' entries, the arguments unchanged. -/
theorem run_of_blocks (G : Dev nD → Fin 2 → EReal)
    (hblk : ∀ (c : Dev nD) (t : Fin cfg0.N) (h15 : t.val % 16 = 15) (j : S1x1x1.Idx),
      (outsAt0 m c t.val t.isLt).1 j = G c ⟨t.val / 16, by have := t.isLt; have : cfg0.N = 32 := N_0; omega⟩) :
    θ_run (defs (F := Ideal)) (onTc (τ := τ) (main (F := Ideal))) ⟨m, fun _ => 0, ρ⟩ (fun r => ∀ c : Dev nD,
      r.2.mem ((c.tc : Thread nD τ).loc main_v1) = (fun _ => (0 : EReal) + ∑ i : (⟨3, ![2, 1, 1]⟩ : Shape).Idx, G c (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨
      ((h c).2 main_v1 (Pipeline.mem_restRefs_of main_v1 rfl (fun w => by fin_cases w <;> decide))).trans
        (tail_of_blocks m c (G c) (hblk c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end AtIdeal

end Cert.Wce.Kern

end
-- ==== Proof.RefRun.lean ====
import proofs.«106328_j47373489275465_2_alg».proof.Proof.Gen.ReferenceIdeal
import Idealize.ShloMosaic.Lib.StableHlo.Run

/-!
# The plain program as a straight line of operations

The plain program calls three module-local functions; with each call replaced by the callee's operations over that
call's own buffers it is a straight line of 43 operations. This file lists them, shows that the program is that line,
and reads off the run: every execution terminates, the two argument arrays are unchanged, and the result buffer holds
the operations' composed term `outF` of the two argument arrays.
-/

noncomputable section

namespace Cert.Wce.Ref

open Cert.ReferenceIdeal Cert.ReferenceIdeal.Gen Idealize.ShloMosaic Idealize.ShloMosaic.TcCoe Idealize.SL.Sem Idealize.ShloMosaic.StableHlo

variable {F : FTy → Type} [FloatOps F]

/-- The operations in order, the calls replaced by their callees' operations. -/
abbrev ops : List (HloOp τ sig (Elt F)) :=
  [ unary main_arg0 main_v0 (sitofp .f32 : (⟨S16384x4096, .i32⟩ : BufTy).Contents (Elt F) → (⟨S16384x4096, .f32⟩ : BufTy).Contents (Elt F)),
    TRef.unary (.of main_arg1) main_call0.v0 Host.negf,
    TRef.nullary main_call0.call0.cst (constant S_ .f32 0x00000000#32),
    TRef.unary main_call0.call0.cst main_call0.call0.v0 (broadcastInDim S16384x4096 ![] bcast_S_S16384x4096),
    TRef.binary main_call0.v0 main_call0.call0.v0 main_call0.call0.v1 maximumf,
    TRef.unary main_call0.call0.cst main_call0.call0.v2 (broadcastInDim S16384x4096 ![] bcast_S_S16384x4096),
    TRef.binary main_call0.v0 main_call0.call0.v2 main_call0.call0.v3 subf,
    TRef.binary main_call0.call0.v3 main_call0.call0.v3 main_call0.call0.v4 (cmpf .une),
    TRef.unary main_call0.call0.cst main_call0.call0.v5 (broadcastInDim S16384x4096 ![] bcast_S_S16384x4096),
    TRef.binary main_call0.v0 main_call0.call0.v5 main_call0.call0.v6 addf,
    TRef.unary main_call0.call0.v3 main_call0.call0.v7 Host.absf,
    TRef.unary main_call0.call0.v7 main_call0.call0.v8 Host.negf,
    TRef.unary main_call0.call0.v8 main_call0.call0.v9 Host.exp,
    TRef.unary main_call0.call0.v9 main_call0.call0.v10 Host.log1p,
    TRef.binary main_call0.call0.v1 main_call0.call0.v10 main_call0.call0.v11 addf,
    TRef.ternary main_call0.call0.v4 main_call0.call0.v6 main_call0.call0.v11 main_call0.call0.v12 select,
    TRef.unary main_call0.call0.v12 main_call0.v2 Host.negf,
    unary main_arg1 main_v2 (Host.negf : (⟨S16384x4096, .f32⟩ : BufTy).Contents (Elt F) → (⟨S16384x4096, .f32⟩ : BufTy).Contents (Elt F)),
    TRef.unary (.of main_v2) main_call1.v0 Host.negf,
    TRef.nullary main_call1.call0.cst (constant S_ .f32 0x00000000#32),
    TRef.unary main_call1.call0.cst main_call1.call0.v0 (broadcastInDim S16384x4096 ![] bcast_S_S16384x4096),
    TRef.binary main_call1.v0 main_call1.call0.v0 main_call1.call0.v1 maximumf,
    TRef.unary main_call1.call0.cst main_call1.call0.v2 (broadcastInDim S16384x4096 ![] bcast_S_S16384x4096),
    TRef.binary main_call1.v0 main_call1.call0.v2 main_call1.call0.v3 subf,
    TRef.binary main_call1.call0.v3 main_call1.call0.v3 main_call1.call0.v4 (cmpf .une),
    TRef.unary main_call1.call0.cst main_call1.call0.v5 (broadcastInDim S16384x4096 ![] bcast_S_S16384x4096),
    TRef.binary main_call1.v0 main_call1.call0.v5 main_call1.call0.v6 addf,
    TRef.unary main_call1.call0.v3 main_call1.call0.v7 Host.absf,
    TRef.unary main_call1.call0.v7 main_call1.call0.v8 Host.negf,
    TRef.unary main_call1.call0.v8 main_call1.call0.v9 Host.exp,
    TRef.unary main_call1.call0.v9 main_call1.call0.v10 Host.log1p,
    TRef.binary main_call1.call0.v1 main_call1.call0.v10 main_call1.call0.v11 addf,
    TRef.ternary main_call1.call0.v4 main_call1.call0.v6 main_call1.call0.v11 main_call1.call0.v12 select,
    TRef.unary main_call1.call0.v12 main_call1.v2 Host.negf,
    binary main_v0 main_v1 main_v4 (mulf : (⟨S16384x4096, .f32⟩ : BufTy).Contents (Elt F) → (⟨S16384x4096, .f32⟩ : BufTy).Contents (Elt F) → (⟨S16384x4096, .f32⟩ : BufTy).Contents (Elt F)),
    nullary main_cst (constant S_ .f32 0x3F800000#32),
    unary main_cst main_v5 (broadcastInDim S16384x4096 ![] bcast_S_S16384x4096 : (⟨S_, .f32⟩ : BufTy).Contents (Elt F) → (⟨S16384x4096, .f32⟩ : BufTy).Contents (Elt F)),
    binary main_v5 main_v0 main_v6 (subf : (⟨S16384x4096, .f32⟩ : BufTy).Contents (Elt F) → (⟨S16384x4096, .f32⟩ : BufTy).Contents (Elt F) → (⟨S16384x4096, .f32⟩ : BufTy).Contents (Elt F)),
    binary main_v6 main_v3 main_v7 (mulf : (⟨S16384x4096, .f32⟩ : BufTy).Contents (Elt F) → (⟨S16384x4096, .f32⟩ : BufTy).Contents (Elt F) → (⟨S16384x4096, .f32⟩ : BufTy).Contents (Elt F)),
    binary main_v4 main_v7 main_v8 (addf : (⟨S16384x4096, .f32⟩ : BufTy).Contents (Elt F) → (⟨S16384x4096, .f32⟩ : BufTy).Contents (Elt F) → (⟨S16384x4096, .f32⟩ : BufTy).Contents (Elt F)),
    nullary main_cst_0 (constant S_ .f32 0x00000000#32),
    binary main_v8 main_cst_0 main_v9 ((fun x v => Host.reduceAdd x v reducesTo_S16384x4096_S_d0_1 h_S_) : (⟨S16384x4096, .f32⟩ : BufTy).Contents (Elt F) → (⟨S_, .f32⟩ : BufTy).Contents (Elt F) → (⟨S_, .f32⟩ : BufTy).Contents (Elt F)),
    unary main_v9 main_v10 (Host.negf : (⟨S_, .f32⟩ : BufTy).Contents (Elt F) → (⟨S_, .f32⟩ : BufTy).Contents (Elt F)) ]

set_option maxRecDepth 4096 in
/-- The program is that line: the functions' bodies unfolded at their calls, sequencing reassociated. -/
theorem main_eq (c : Dev nD) : main (F := F) c = seq ops := by
  simp only [main, fn_log_sigmoid.body, fn_log_sigmoid_0.body, fn_softplus.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., unary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., binary_bufs_sub .., nullary_bufs_sub .., unary_bufs_sub .., binary_bufs_sub .., binary_bufs_sub .., binary_bufs_sub .., nullary_bufs_sub .., binary_bufs_sub .., unary_bufs_sub ..⟩

/-- The scalar zero broadcast over the array. -/
def zeroA : (⟨S16384x4096, .f32⟩ : BufTy).Contents (Elt F) :=
  broadcastInDim S16384x4096 ![] bcast_S_S16384x4096 (constant S_ .f32 0x00000000#32)

/-- The scalar one broadcast over the array. -/
def oneA : (⟨S16384x4096, .f32⟩ : BufTy).Contents (Elt F) :=
  broadcastInDim S16384x4096 ![] bcast_S_S16384x4096 (constant S_ .f32 0x3F800000#32)

/-- The softplus function's operations composed: where `x - 0` differs from itself, `x + 0`; elsewhere
    `max x 0 + log1p (exp (-|x - 0|))`. -/
def spF (x : (⟨S16384x4096, .f32⟩ : BufTy).Contents (Elt F)) : (⟨S16384x4096, .f32⟩ : BufTy).Contents (Elt F) :=
  select (cmpf .une (subf x zeroA) (subf x zeroA)) (addf x zeroA)
    (addf (maximumf x zeroA) (Host.log1p (Host.exp (Host.negf (Host.absf (subf x zeroA))))))

/-- The log-sigmoid function's operations composed: `-softplus (-x)`. -/
def lsF (x : (⟨S16384x4096, .f32⟩ : BufTy).Contents (Elt F)) : (⟨S16384x4096, .f32⟩ : BufTy).Contents (Elt F) := Host.negf (spF (Host.negf x))

/-- The array that is summed: `t · logσ z + (1 - t) · logσ (-z)` with `t` the converted integer array. -/
def termF (P : (⟨S16384x4096, .i32⟩ : BufTy).Contents (Elt F)) (Z : (⟨S16384x4096, .f32⟩ : BufTy).Contents (Elt F)) : (⟨S16384x4096, .f32⟩ : BufTy).Contents (Elt F) :=
  addf (mulf (sitofp .f32 P) (lsF Z)) (mulf (subf oneA (sitofp .f32 P)) (lsF (Host.negf Z)))

/-- The whole program's operations composed: minus the sum, from the scalar zero, of `termF` over both axes. -/
def outF (P : (⟨S16384x4096, .i32⟩ : BufTy).Contents (Elt F)) (Z : (⟨S16384x4096, .f32⟩ : BufTy).Contents (Elt F)) : (⟨S_, .f32⟩ : BufTy).Contents (Elt F) :=
  Host.negf (Host.reduceAdd (termF P Z) (constant S_ .f32 0x00000000#32) reducesTo_S16384x4096_S_d0_1 h_S_)

set_option maxRecDepth 8192 in
/-- The fold of the operations at the result buffer is `outF` of the two argument buffers' contents. -/
theorem out_eq (V : Valuation τ sig (Elt F)) :
    after ops V (main_v10 : DevRef τ sig) = outF (V (main_arg0 : DevRef τ sig)) (V (main_arg1 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

/-- From any memory with zero counters every weakly fair execution of the program terminates with the result buffer
    at `outF` of the two argument arrays and the argument arrays unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10)
          = outF (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v10).trans (out_eq _),
      (h c main_arg0).trans (arg0_eq _),
      (h c main_arg1).trans (arg1_eq _)⟩)
    (run_seq scopedRefs_eq scopedSems_eq defs main (fun _ => ops) main_eq (fun _ => ops_sub) m ρ)

end Cert.Wce.Ref

end
-- ==== Proof.RefValue.lean ====
import proofs.«106328_j47373489275465_2_alg».proof.Proof.RefRun
import proofs.«106328_j47373489275465_2_alg».proof.Proof.LossSpec
import Idealize.ShloMosaic.PureOps.Ideal.Laws
import Idealize.ShloMosaic.PureOps.IdealRules

/-!
# The plain program's result is `totalR`

At the extended reals the composed term `outF` of the plain program, read entry by entry, is the loss `totalR`:
the softplus function's guard `x - 0 ≠ x - 0` never holds, `x - 0 = x`, `|x| = max x (-x)`, the constants denote
`0` and `1`, the integer conversion is exact, and the sum over both axes into a scalar is the sum over all entries.
-/

noncomputable section

open scoped BigOperators

namespace Cert.Wce.Ref

open Cert.ReferenceIdeal Cert.ReferenceIdeal.Gen Idealize.ShloMosaic Idealize.ShloMosaic.TcCoe Idealize.SL.Sem Idealize.ShloMosaic.StableHlo

/-- The broadcast zero is `0` at every entry. -/
theorem zeroA_apply (i : S16384x4096.Idx) : (zeroA (F := Ideal)) i = 0 := Ideal.ofBits_zero_f32

/-- The broadcast one is `1` at every entry. -/
theorem oneA_apply (i : S16384x4096.Idx) : (oneA (F := Ideal)) i = 1 := IdealRules.sign_bit.ideal_onePat .f32

/-- No extended real differs from itself. -/
theorem cmp_une_self (a : EReal) : Ideal.cmp .une a a = 0#1 := by simp [Ideal.cmp]

/-- The softplus operations at an entry. -/
theorem spF_apply (x : FVec Ideal S16384x4096 .f32) (i : S16384x4096.Idx) :
    spF (F := Ideal) x i = softplus (x i) := by
  show Scalar.select (Ideal.cmp .une (x i - zeroA (F := Ideal) i) (x i - zeroA (F := Ideal) i)) (x i + zeroA (F := Ideal) i)
      (max (x i) (zeroA (F := Ideal) i)
        + Ideal.log1p (Ideal.exp (-(max (x i - zeroA (F := Ideal) i) (-(x i - zeroA (F := Ideal) i)))))) = _
  rw [zeroA_apply, cmp_une_self, sub_zero]
  rfl

/-- The log-sigmoid operations at an entry. -/
theorem lsF_apply (x : FVec Ideal S16384x4096 .f32) (i : S16384x4096.Idx) :
    lsF (F := Ideal) x i = logSigmoid (x i) := by
  show -(spF (F := Ideal) (Host.negf x) i) = _
  rw [spF_apply]
  rfl

/-- The summed array at an entry. -/
theorem termF_apply (P : IVec S16384x4096 32) (Z : FVec Ideal S16384x4096 .f32) (i : S16384x4096.Idx) :
    termF (F := Ideal) P Z i = termR (tOf (P i)) (Z i) := by
  show tOf (P i) * lsF (F := Ideal) Z i + (oneA (F := Ideal) i - tOf (P i)) * lsF (F := Ideal) (Host.negf Z) i = _
  rw [lsF_apply, lsF_apply, oneA_apply]
  rfl

/-- The composed term is the loss. -/
theorem outF_eq (P : IVec S16384x4096 32) (Z : FVec Ideal S16384x4096 .f32) :
    outF (F := Ideal) P Z = fun _ => totalR P Z := by
  funext j
  show -(Ideal.hostReduceAdd reducesTo_S16384x4096_S_d0_1 (termF (F := Ideal) P Z) (Ideal.ofBits .f32 0x00000000#32) j) = _
  rw [Ideal.hostReduceAdd_total reducesTo_S16384x4096_S_d0_1 (fun b => b.elim0), Ideal.ofBits_zero_f32]
  unfold totalR
  exact congrArg (fun s => -(0 + s)) (Finset.sum_congr rfl fun i _ => termF_apply P Z i)

open Cert.ReferenceIdeal in
/-- From any memory with zero counters every weakly fair execution of the plain program terminates with the result
    buffer at the loss `totalR` of the two argument arrays and the argument arrays unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v10)
            = (fun _ => Cert.Wce.totalR (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run _ _ _).mono (fun _ h c => ⟨(h c).1.trans (outF_eq _ _), (h c).2.1, (h c).2.2⟩) (run_out m ρ)

end Cert.Wce.Ref

end
-- ==== Proof.LossPointwise.lean ====
import proofs.«106328_j47373489275465_2_alg».proof.Proof.LossSpec

/-!
# The two entries agree up to sign on finite logits

For a real logit `z` and a real target `t`, with `w = log (1 + exp (-|z|))`:
`softplus z = max z 0 + w`, `softplus (-z) = max (-z) 0 + w`, and `max z 0 - max (-z) 0 = z`, so
`termR t z = t·z - max z 0 - w = -(lossK t z)`, all terms being real numbers.
-/

noncomputable section

open scoped BigOperators

namespace Cert.Wce

open Idealize.ShloMosaic

/-- `log (1 + exp (-|z|))` as a real number. -/
def wR (z : ℝ) : ℝ := Real.log (1 + Real.exp (-(max z (-z))))

/-- The blocked program's entry as a real number. -/
def lR (t z : ℝ) : ℝ := -(t * z + -(max z 0 + wR z))

/-- The coercion of reals into extended reals commutes with `max`. -/
theorem coe_max (a b : ℝ) : ((max a b : ℝ) : EReal) = max (a : EReal) (b : EReal) :=
  EReal.coe_strictMono.monotone.map_max

theorem wR_neg (z : ℝ) : wR (-z) = wR z := by
  unfold wR
  rw [neg_neg, max_comm]

/-- On a real argument `softplus` is the real number `max z 0 + log (1 + exp (-|z|))`. -/
theorem softplus_coe (z : ℝ) : softplus (z : EReal) = ((max z 0 + wR z : ℝ) : EReal) := by
  have hpos : ¬ (1 + Real.exp (-(max z (-z))) ≤ 0) := by
    have := Real.exp_pos (-(max z (-z)))
    linarith
  unfold softplus wR Ideal.log1p
  rw [← EReal.coe_neg z, ← coe_max, ← EReal.coe_neg, Ideal.exp_coe, ← EReal.coe_one, ← EReal.coe_add,
    Ideal.log_coe, if_neg hpos, ← EReal.coe_zero, ← coe_max, ← EReal.coe_add]

/-- The blocked program's entry on real arguments. -/
theorem lossK_coe (t z : ℝ) : lossK (t : EReal) (z : EReal) = ((lR t z : ℝ) : EReal) := by
  unfold lossK logSigmoid lR
  rw [neg_neg, softplus_coe, ← EReal.coe_neg, ← EReal.coe_mul, ← EReal.coe_add, ← EReal.coe_neg]

/-- The plain program's entry on real arguments is minus the blocked program's. -/
theorem termR_coe (t z : ℝ) : termR (t : EReal) (z : EReal) = ((-lR t z : ℝ) : EReal) := by
  unfold termR logSigmoid
  rw [neg_neg, softplus_coe, ← EReal.coe_neg z, softplus_coe, wR_neg, ← EReal.coe_one, ← EReal.coe_sub,
    ← EReal.coe_neg, ← EReal.coe_neg, ← EReal.coe_mul, ← EReal.coe_mul, ← EReal.coe_add]
  congr 1
  unfold lR
  have h : max z 0 - max (-z) 0 = z := by
    rcases le_total z 0 with hz | hz
    · rw [max_eq_right hz, max_eq_left (by linarith)]; ring
    · rw [max_eq_left hz, max_eq_right (by linarith)]; ring
  have h2 : max (-z) 0 = max z 0 - z := by linarith
  rw [h2]
  ring

end Cert.Wce

end
-- ==== Proof.LibUnitAxisSums.lean ====
/-
  General lemmas about unit axes and sums over index sets, independent of any program.

  * `shapeCast_a_a1_apply`: a vector of length `a` viewed as a column `[a, 1]` (a row reduction kept with
    `keepdims=True`) reads, at `(i, u)`, the vector's entry `i`.
  * `sum_idx1`: a sum over the index set of a rank-1 shape `[n]` is the sum over `Fin n`.
  * `sum_idx_1n1`: a sum over the index set of the shape `[1, n, 1]` is the sum over its middle coordinate.
  * `sum_fin_blocks`: a sum over `Fin (q * n)` cut into `q` consecutive blocks of `n`:
    `∑ i, g i = ∑ b, ∑ r, g (n * b + r)`.
-/
import Idealize.ShloMosaic.Lib.Pipeline.Value
import Idealize.ShloMosaic.Lib.ValueIdx

noncomputable section

open scoped BigOperators

namespace Idealize.ShloMosaic.ValueIdx

open Idealize.ShloMosaic

variable {α : Type}

/-- An `[a]` array cast to the column `[a, 1]` reads, at `(i, u)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index set of the rank-1 shape `[n]` is `Fin n` … -/
def idxEquiv1 {n : Nat} : (⟨1, ![n]⟩ : Shape).Idx ≃ Fin n where
  toFun i := i 0
  invFun r := ix1 r
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ r : Fin n, f (ix1 r) := by
  rw [← Equiv.sum_comp (idxEquiv1 (n := n)).symm f]
  rfl

/-- The index set of the shape `[1, n, 1]` is `Fin n`: the two unit coordinates are `0`. -/
def idxEquiv_1n1 {n : Nat} : (⟨3, ![1, n, 1]⟩ : Shape).Idx ≃ Fin n where
  toFun i := i 1
  invFun r := ix3 (0 : Fin 1) r (0 : Fin 1)
  left_inv i := by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over it is the sum over the middle coordinate. -/
theorem sum_idx_1n1 {M : Type*} [AddCommMonoid M] {n : Nat} (f : (⟨3, ![1, n, 1]⟩ : Shape).Idx → M) :
    ∑ i, f i = ∑ r : Fin n, f (ix3 (0 : Fin 1) r (0 : Fin 1)) := by
  rw [← Equiv.sum_comp (idxEquiv_1n1 (n := n)).symm f]
  rfl

/-- A sum over `q * n` consecutive positions, cut into `q` blocks of `n`. -/
theorem sum_fin_blocks {M : Type*} [AddCommMonoid M] (q n : Nat) (g : Fin (q * n) → M) :
    ∑ i, g i = ∑ b : Fin q, ∑ r : Fin n, g ⟨n * b.val + r.val, by
      have hb := b.isLt; have hr := r.isLt
      calc n * b.val + r.val < n * b.val + n := by omega
        _ = n * (b.val + 1) := by ring
        _ ≤ n * q := Nat.mul_le_mul_left n hb
        _ = q * n := Nat.mul_comm n q⟩ := by
  rw [← Equiv.sum_comp (finProdFinEquiv : Fin q × Fin n ≃ Fin (q * n)) g, Fintype.sum_prod_type]
  refine Finset.sum_congr rfl fun b _ => Finset.sum_congr rfl fun r _ => congrArg g (Fin.ext ?_)
  show r.val + n * b.val = n * b.val + r.val
  omega

end Idealize.ShloMosaic.ValueIdx

end
-- ==== Proof.LossSums.lean ====
import proofs.«106328_j47373489275465_2_alg».proof.Proof.LossSpec
import proofs.«106328_j47373489275465_2_alg».proof.Proof.LibUnitAxisSums

/-!
# The blocked sum is the plain sum

In any commutative monoid: adding, for each half `c`, each tile row `r`, each column `l`, each of the 16 row
blocks `j` of the half and each of the 64 groups `q` of eight rows, the entry at row
`(16·c + j)·512 + q·8 + r` and column `l`, adds every entry of the 16384 × 4096 array exactly once, because every
row below 16384 is `(16·c + j)·512 + q·8 + r` for exactly one `(c, j, q, r)`.

The accumulated tile after row block `n` is the sum of the row blocks of its half up to `n`; after the last
block of a half it is the sum over the half's 16 blocks.
-/

noncomputable section

open scoped BigOperators

namespace Cert.Wce

open Idealize.ShloMosaic Idealize.ShloMosaic.ValueIdx

/-! ## Sums over rank-3 index sets -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## Every row is `(16·c + j)·512 + q·8 + r` exactly once -/

/-- A sum over the 16384 rows, cut into 2 halves of 16 blocks of 64 groups of 8 rows. -/
theorem sum_rows_split {M : Type*} [AddCommMonoid M] (H : ℕ → M) :
    ∑ a : Fin 16384, H a.val
      = ∑ c : Fin 2, ∑ j : Fin 16, ∑ q : Fin 64, ∑ r : Fin 8,
          H ((16 * c.val + j.val) * 512 + q.val * 8 + r.val) := by
  calc ∑ a : Fin 16384, H a.val = ∑ a : Fin (2 * 8192), H a.val := rfl
    _ = ∑ c : Fin 2, ∑ s : Fin 8192, H (8192 * c.val + s.val) :=
        sum_fin_blocks 2 8192 (fun a => H a.val)
    _ = ∑ c : Fin 2, ∑ j : Fin 16, ∑ t : Fin 512, H (8192 * c.val + (512 * j.val + t.val)) :=
        Finset.sum_congr rfl fun c _ => sum_fin_blocks 16 512 (fun a => H (8192 * c.val + a.val))
    _ = ∑ c : Fin 2, ∑ j : Fin 16, ∑ q : Fin 64, ∑ r : Fin 8,
          H (8192 * c.val + (512 * j.val + (8 * q.val + r.val))) :=
        Finset.sum_congr rfl fun c _ => Finset.sum_congr rfl fun j _ =>
          sum_fin_blocks 64 8 (fun a => H (8192 * c.val + (512 * j.val + a.val)))
    _ = _ :=
        Finset.sum_congr rfl fun c _ => Finset.sum_congr rfl fun j _ => Finset.sum_congr rfl fun q _ =>
          Finset.sum_congr rfl fun r _ => congrArg H (by omega)

/-- The blocked order of summation (halves, tile rows, columns, blocks, groups) reaches every entry once. -/
theorem sum_blocked {M : Type*} [AddCommMonoid M] {ι : Type*} [Fintype ι] (G : ℕ → ι → M) :
    ∑ c : Fin 2, ∑ r : Fin 8, ∑ l : ι, ∑ j ∈ Finset.range 16, ∑ q : Fin 64,
        G ((16 * c.val + j) * 512 + q.val * 8 + r.val) l
      = ∑ a : Fin 16384, ∑ l : ι, G a.val l := by
  rw [sum_rows_split (fun ρ => ∑ l : ι, G ρ l)]
  refine Finset.sum_congr rfl fun c _ => ?_
  calc ∑ r : Fin 8, ∑ l : ι, ∑ j ∈ Finset.range 16, ∑ q : Fin 64, G ((16 * c.val + j) * 512 + q.val * 8 + r.val) l
      = ∑ r : Fin 8, ∑ l : ι, ∑ j : Fin 16, ∑ q : Fin 64, G ((16 * c.val + j.val) * 512 + q.val * 8 + r.val) l :=
        Finset.sum_congr rfl fun r _ => Finset.sum_congr rfl fun l _ =>
          Finset.sum_range (fun j => ∑ q : Fin 64, G ((16 * c.val + j) * 512 + q.val * 8 + r.val) l)
    _ = ∑ r : Fin 8, ∑ j : Fin 16, ∑ q : Fin 64, ∑ l : ι, G ((16 * c.val + j.val) * 512 + q.val * 8 + r.val) l :=
        Finset.sum_congr rfl fun r _ => by
          rw [Finset.sum_comm]
          exact Finset.sum_congr rfl fun j _ => Finset.sum_comm
    _ = ∑ j : Fin 16, ∑ q : Fin 64, ∑ r : Fin 8, ∑ l : ι, G ((16 * c.val + j.val) * 512 + q.val * 8 + r.val) l := by
        rw [Finset.sum_comm]
        exact Finset.sum_congr rfl fun j _ => Finset.sum_comm

end Cert.Wce

end
-- ==== Proof.LossAlgebra.lean ====
import proofs.«106328_j47373489275465_2_alg».proof.Proof.LossSpec
import proofs.«106328_j47373489275465_2_alg».proof.Proof.LossPointwise
import proofs.«106328_j47373489275465_2_alg».proof.Proof.LossSums

/-!
# The two totals agree on finite logits

1. In the extended reals (a commutative monoid under addition) the blocked total is the plain sum of its
   entries `lossK`: the accumulated tile after row block `n` is the sum of the folded row blocks of its half
   up to `n`, and the blocked order of summation reaches every entry once. No finiteness is needed here.
2. On a finite logit both entries are real numbers, one minus the other, so the plain program's total
   `-(0 + ∑ -ℓ)` is `∑ ℓ`, the blocked total.
-/

noncomputable section

open scoped BigOperators

namespace Cert.Wce

open Idealize.ShloMosaic Idealize.ShloMosaic.ValueIdx

/-- A finite sum of real numbers, each read as an extended real, is the real sum read as an extended real. -/
theorem coe_finset_sum {ι : Type*} (s : Finset ι) (f : ι → ℝ) :
    ∑ i ∈ s, ((f i : ℝ) : EReal) = ((∑ i ∈ s, f i : ℝ) : EReal) := by
  classical
  refine Finset.induction_on s ?_ ?_
  · simp
  · intro a s ha ih
    rw [Finset.sum_insert ha, Finset.sum_insert ha, ih, EReal.coe_add]

section Blocked

variable (P : ArrIdx → BitVec 32) (Z : ArrIdx → EReal)

/-- The blocked program's entries with rows indexed by natural numbers (zero beyond the last row). -/
def entK (ρ : ℕ) (l : Fin 4096) : EReal :=
  if h : ρ < 16384 then lossK (tOf (P (ix2 ⟨ρ, h⟩ l))) (Z (ix2 ⟨ρ, h⟩ l)) else 0

/-- A folded row block: at `(r, l)` the sum over the 64 groups of the entry at row `n·512 + q·8 + r`. -/
theorem partialK_eq (n : ℕ) (hn : n < 32) (r : Fin 8) (l : Fin 4096) :
    partialK P Z n hn r l = ∑ q : Fin 64, entK P Z (n * 512 + q.val * 8 + r.val) l := by
  unfold partialK
  refine Finset.sum_congr rfl fun q _ => ?_
  have h : n * 512 + q.val * 8 + r.val < 16384 := by
    have := q.isLt
    have := r.isLt
    omega
  unfold entK
  rw [dif_pos h]
  rfl

/-- The accumulated tile after row block `n` is the sum of the folded row blocks `n - n % 16, …, n`. -/
theorem accK_eq (r : Fin 8) (l : Fin 4096) : ∀ (n : ℕ) (hn : n < 32), accK P Z n hn r l
    = ∑ j ∈ Finset.range (n % 16 + 1), ∑ q : Fin 64, entK P Z ((n - n % 16 + j) * 512 + q.val * 8 + r.val) l := by
  intro n
  induction n with
  | zero =>
    intro hn
    show 0 + partialK P Z 0 hn r l = _
    rw [zero_add, partialK_eq]
    simp
  | succ n ih =>
    intro hn
    show (if (n + 1) % 16 = 0 then 0 + partialK P Z (n + 1) hn r l
      else accK P Z n (Nat.lt_of_succ_lt hn) r l + partialK P Z (n + 1) hn r l) = _
    by_cases h : (n + 1) % 16 = 0
    · rw [if_pos h, zero_add, partialK_eq, h]
      simp
    · have e1 : (n + 1) % 16 = n % 16 + 1 := by omega
      have e2 : n + 1 - (n % 16 + 1) = n - n % 16 := by omega
      have e3 : n - n % 16 + (n % 16 + 1) = n + 1 := by omega
      rw [if_neg h, ih, partialK_eq, e1, e2, Finset.sum_range_succ _ (n % 16 + 1), e3]

/-- One half's sum: over the tile, the 16 row blocks of the half and the 64 groups. -/
theorem coreK_eq (c : Fin 2) : coreK P Z c
    = ∑ r : Fin 8, ∑ l : Fin 4096, ∑ j ∈ Finset.range 16, ∑ q : Fin 64,
        entK P Z ((16 * c.val + j) * 512 + q.val * 8 + r.val) l := by
  have e1 : (16 * c.val + 15) % 16 + 1 = 16 := by omega
  have e2 : 16 * c.val + 15 - (16 * c.val + 15) % 16 = 16 * c.val := by omega
  unfold coreK
  rw [sum_idx3, Fin.sum_univ_one]
  refine Finset.sum_congr rfl fun r _ => Finset.sum_congr rfl fun l _ => ?_
  show accK P Z (16 * c.val + 15) _ r l = _
  rw [accK_eq, e2, e1]

/-- The blocked total is the plain sum of the blocked program's entries. -/
theorem totalK_eq_sum : totalK P Z = ∑ i : ArrIdx, lossK (tOf (P i)) (Z i) := by
  calc totalK P Z = ∑ c : Fin 2, coreK P Z c := by
        unfold totalK
        rw [zero_add, sum_idx3]
        simp only [Fin.sum_univ_one]
    _ = ∑ c : Fin 2, ∑ r : Fin 8, ∑ l : Fin 4096, ∑ j ∈ Finset.range 16, ∑ q : Fin 64,
          entK P Z ((16 * c.val + j) * 512 + q.val * 8 + r.val) l :=
        Finset.sum_congr rfl fun c _ => coreK_eq P Z c
    _ = ∑ a : Fin 16384, ∑ l : Fin 4096, entK P Z a.val l := sum_blocked (entK P Z)
    _ = ∑ i : ArrIdx, lossK (tOf (P i)) (Z i) := by
        rw [sum_idx2]
        refine Finset.sum_congr rfl fun a _ => Finset.sum_congr rfl fun b _ => ?_
        unfold entK
        rw [dif_pos a.isLt]

end Blocked

/-- On finite logits the blocked total and the plain total agree. -/
theorem totalK_eq_totalR (P : Cert.Wce.ArrIdx → BitVec 32) (Z : Cert.Wce.ArrIdx → EReal)
    (hZ : ∀ i, ∃ r : ℝ, Z i = (r : EReal)) :
    Cert.Wce.totalK P Z = Cert.Wce.totalR P Z := by
  have hK : ∀ i, lossK (tOf (P i)) (Z i) = ((lR ((P i).toInt : ℝ) (Z i).toReal : ℝ) : EReal) := by
    intro i
    obtain ⟨r, hr⟩ := hZ i
    rw [hr, EReal.toReal_coe]
    exact lossK_coe _ _
  have hR : ∀ i, termR (tOf (P i)) (Z i) = ((-lR ((P i).toInt : ℝ) (Z i).toReal : ℝ) : EReal) := by
    intro i
    obtain ⟨r, hr⟩ := hZ i
    rw [hr, EReal.toReal_coe]
    exact termR_coe _ _
  rw [totalK_eq_sum]
  unfold totalR
  rw [Finset.sum_congr rfl fun i _ => hK i, Finset.sum_congr rfl fun i _ => hR i, coe_finset_sum, coe_finset_sum,
    zero_add, ← EReal.coe_neg, Finset.sum_neg_distrib, neg_neg]

end Cert.Wce

end
-- ==== Proof.FiniteInputs.lean ====
import proofs.«106328_j47373489275465_2_alg».proof.Pre_finite_inputs
import Idealize.ShloMosaic.PureOps.Ideal
import Idealize.ShloMosaic.Lib.ReduceAll
import Idealize.ShloMosaic.Lib.ValueIdx

/-!
# Finite logits from the precondition

The precondition is the conjunction over all entries of `|z| < +∞`, with `|z| = max z (-z)`. An extended real
whose absolute value is below `+∞` is neither `+∞` nor `-∞`, so it is a real number.
-/

noncomputable section

namespace Cert.Wce

open Idealize.ShloMosaic Idealize.ShloMosaic.ValueIdx

/-- The scalar shape has one index. -/
instance : Subsingleton Cert.Pre_finite_inputs.S_.Idx := ⟨fun a b => funext fun d => d.elim0⟩

/-- An extended real with `max x (-x) < ⊤` is a real number. -/
theorem exists_real_of_abs_lt_top (x : EReal) (h : max x (-x) < ⊤) : ∃ r : ℝ, x = (r : EReal) := by
  have hne_top : x ≠ ⊤ := by
    rintro rfl
    simp at h
  have hne_bot : x ≠ ⊥ := by
    rintro rfl
    simp at h
  exact ⟨x.toReal, (EReal.coe_toReal hne_top hne_bot).symm⟩

/-- If the precondition's conjunction is true, every logit is a real number. -/
theorem finite_of_pre [Cert.Pre_finite_inputs.Facts] (P : IVec Cert.Pre_finite_inputs.S16384x4096 32)
    (Z : FVec Ideal Cert.Pre_finite_inputs.S16384x4096 .f32)
    (h : Cert.Pre_finite_inputs.fn (F := Ideal) P Z = (fun _ => 1#1)) : ∀ i, ∃ r : ℝ, Z i = (r : EReal) := by
  intro i
  have h0 := congrFun h ValueIdx.ix0
  dsimp only [Cert.Pre_finite_inputs.fn] at h0
  have hi := Host.reduce_andi_all _ _ _ _ _ h0 i
  have htop : Ideal.ofBits .f32 0x7F800000#32 = ⊤ := by simp [Ideal.ofBits, Ideal.ieee]
  have hi' : Ideal.cmp .olt (max (Z i : EReal) (-(Z i : EReal))) (Ideal.ofBits .f32 0x7F800000#32) = 1#1 := hi
  rw [htop] at hi'
  unfold Ideal.cmp at hi'
  refine exists_real_of_abs_lt_top (Z i) ?_
  by_contra hn
  simp [hn] at hi'

end Cert.Wce

end
-- ==== Proof.lean ====
/-
  The certificate's proof: a blocked cross-entropy kernel against its plain reference, over the extended reals.

  With integer targets `t` (converted exactly) and finite logits `z`, the reference sums
  `t · log σ(z) + (1 - t) · log σ(-z)` over all 16384 × 4096 entries and negates the sum, where
  `log σ(x) = -(max (-x) 0 + log (1 + exp (-|x|)))`. The kernel uses `log σ(z) - log σ(-z) = z` to sum
  `-(t · z + log σ(-z))` instead, and arranges the sum by blocks: 32 row blocks of 512 rows, each folded to an
  8 × 4096 tile, the tiles of each half of the rows accumulated from zero over 16 grid points, the accumulated
  tile summed to one number per half, and the two numbers added by a final host sum.

  * `LossSpec` states both results as functions `totalK`, `totalR` of the two argument arrays.
  * `KernPieces`, `KernPayload`, `KernBlocks`, `KernTile`, `KernFinal`: the kernel's run ends with `totalK` of its
    arguments in its result (what each grid point stores, entry by entry; which rows a grid point reads; the
    induction over the grid points; the two written-back entries and the final host sum).
  * `RefRun`, `RefValue`: the reference's run ends with `totalR` of its arguments.
  * `LossPointwise`, `LossSums`, `LossAlgebra`: on finite logits the entries agree up to sign, every partial sum
    is a real number, and the blocked sum is a re-indexing of the plain one: `totalK = totalR`.
  * `FiniteInputs`: the precondition makes every logit a real number.

  The three frame claims are the runs with the result forgotten; the kernel's idealization rewrote nothing.
-/
import proofs.«106328_j47373489275465_2_alg».proof.Defs
import proofs.«106328_j47373489275465_2_alg».proof.Proof.Gen.Kernel
import proofs.«106328_j47373489275465_2_alg».proof.Proof.Gen.Kernel.Skeleton
import proofs.«106328_j47373489275465_2_alg».proof.Proof.Gen.Kernel.Launch
import proofs.«106328_j47373489275465_2_alg».proof.Proof.Gen.Kernel.Points
import proofs.«106328_j47373489275465_2_alg».proof.Proof.Gen.Kernel.Frame
import proofs.«106328_j47373489275465_2_alg».proof.Proof.Gen.KernelIdeal
import proofs.«106328_j47373489275465_2_alg».proof.Proof.Gen.KernelIdeal.Skeleton
import proofs.«106328_j47373489275465_2_alg».proof.Proof.Gen.KernelIdeal.Launch
import proofs.«106328_j47373489275465_2_alg».proof.Proof.Gen.KernelIdeal.Points
import proofs.«106328_j47373489275465_2_alg».proof.Proof.Gen.KernelIdeal.Frame
import proofs.«106328_j47373489275465_2_alg».proof.Proof.Gen.ReferenceIdeal
import proofs.«106328_j47373489275465_2_alg».proof.Proof.Gen.Pre_finite_inputs
import proofs.«106328_j47373489275465_2_alg».proof.Proof.KernTile
import proofs.«106328_j47373489275465_2_alg».proof.Proof.KernFinal
import proofs.«106328_j47373489275465_2_alg».proof.Proof.RefValue
import proofs.«106328_j47373489275465_2_alg».proof.Proof.LossAlgebra
import proofs.«106328_j47373489275465_2_alg».proof.Proof.FiniteInputs
import Idealize.ShloMosaic.Adequacy
import Idealize.ShloMosaic.Init

noncomputable section

namespace Cert.Proof

open Idealize.ShloMosaic Idealize.SL.Sem

/-- The kernel, as printed, runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result forgotten. -/
theorem frame_referenceIdeal : Cert.frame_ReferenceIdeal := fun m ρ _ =>
  (θ_run Cert.ReferenceIdeal.defs _ _).mono (fun _ h c => (h c).2) (Cert.Wce.Ref.run m ρ)

/-- The idealization rewrote no operation of the kernel. -/
theorem preserves : Cert.preserves_Kernel_KernelIdeal := trivial

/-- On finite logits both programs end with the same extended real: the kernel with the blocked sum `totalK` of its
    arguments, the reference with the plain sum `totalR` of arguments that agree, and the two sums are equal. -/
theorem algebraic : Cert.algebraic_KernelIdeal_ReferenceIdeal := by
  intro m ρ m' ρ' hpre hagree
  refine ⟨fun c => fun _ => Cert.Wce.totalK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact Cert.Wce.Kern.run_of_blocks m ρ
      (fun c => Cert.Wce.coreK
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (fun c t h15 j => Cert.Wce.Kern.block_eq m c t h15 j)
  · refine (θ_run Cert.ReferenceIdeal.defs _ _).mono (fun _ h c => ⟨(h c).1.trans ?_, (h c).2⟩) (Cert.Wce.Ref.run m' ρ')
    rw [(hagree c).1, (hagree c).2]
    exact funext fun _ => (Cert.Wce.totalK_eq_totalR _ _ (Cert.Wce.finite_of_pre _ _ (hpre c))).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
